-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg6 : FVec F S100000x64 .f32) (main_arg7 : FVec F S50000x64 .f32) (main_arg8 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S100000x64 .f32) (main_arg3 : FVec F S64x64 .f32) (main_arg4 : IVec S2x1250000 32) (main_arg5 : IVec S1250000 32) (main_arg6 : FVec F S100000x64 .f32) (main_arg7 : FVec F S50000x64 .f32) (main_arg8 : FVec F S16x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 54
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x64, .f32⟩
  | .hbm, ⟨3, _⟩ => ⟨S64x64, .f32⟩
  | .hbm, ⟨4, _⟩ => ⟨S2x1250000, .i32⟩
  | .hbm, ⟨5, _⟩ => ⟨S1250000, .i32⟩
  | .hbm, ⟨6, _⟩ => ⟨S100000x64, .f32⟩
  | .hbm, ⟨7, _⟩ => ⟨S50000x64, .f32⟩
  | .hbm, ⟨8, _⟩ => ⟨S16x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S_, .f32⟩
  | .hbm, ⟨40, _⟩ => ⟨S1250000, .f32⟩
  | .hbm, ⟨41, _⟩ => ⟨S_, .f32⟩
  | .hbm, ⟨42, _⟩ => ⟨S100000, .f32⟩
  | .hbm, ⟨43, _⟩ => ⟨S1250000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  reduces_S5000x64_S5000 : S5000x64.Reduces [1] S5000
  shapeCasts_S5000_S5000x1 : S5000.ShapeCasts S5000x1
  broadcasts_S5000x1_S5000x64 : S5000x1.Broadcasts S5000x64
  gather_S100000x64_S1250000x1_S1250000x64_1_0_n_n_0_1_164_wf : GatherDims.WF S100000x64 S1250000x1 S1250000x64 [1] [0] [] [0] [] 1 ![1, 64]
  gather_S16x64_S1250000x1_S1250000x64_1_0_n_n_0_1_164_wf : GatherDims.WF S16x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S16x64_S1250000x1_S1250000x64_1_0_n_n_0_1_164 : GatherDims S16x64 S1250000x1 S1250000x64 where
  offsetDims := [1]
  collapsedSliceDims := [0]
  operandBatchingDims := []
  startIndicesBatchingDims := []
  startIndexMap := [0]
  indexVectorDim := 1
  sliceSizes := ![1, 64]
  wf := gather_S16x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x64, .f32⟩
  | .hbm, ⟨3, _⟩ => ⟨S64x64, .f32⟩
  | .hbm, ⟨4, _⟩ => ⟨S2x1250000, .i32⟩
  | .hbm, ⟨5, _⟩ => ⟨S1250000, .i32⟩
  | .hbm, ⟨6, _⟩ => ⟨S100000x64, .f32⟩
  | .hbm, ⟨7, _⟩ => ⟨S50000x64, .f32⟩
  | .hbm, ⟨8, _⟩ => ⟨S16x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S_, .f32⟩
  | .hbm, ⟨40, _⟩ => ⟨S1250000, .f32⟩
  | .hbm, ⟨41, _⟩ => ⟨S_, .f32⟩
  | .hbm, ⟨42, _⟩ => ⟨S100000, .f32⟩
  | .hbm, ⟨43, _⟩ => ⟨S1250000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S64x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S64x64, .f32⟩
  | .hbm, ⟨69, _⟩ => ⟨S50000x64, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S50000x64, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  reducesTo_S100000x64_S100000_d1 : S100000x64.ReducesTo [1] S100000
  h_S_ : 0 < S_.numel
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S16x64_S1250000x1_S1250000x64_1_0_n_n_0_1_164_wf : GatherDims.WF S16x64 S1250000x1 S1250000x64 [1] [0] [] [0] [] 1 ![1, 64]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []

variable [Facts₀]

def gather_S16x64_S1250000x1_S1250000x64_1_0_n_n_0_1_164 : GatherDims S16x64 S1250000x1 S1250000x64 where
  offsetDims := [1]
  collapsedSliceDims := [0]
  operandBatchingDims := []
  startIndicesBatchingDims := []
  startIndexMap := [0]
  indexVectorDim := 1
  sliceSizes := ![1, 64]
  wf := gather_S16x64_S1250000x1_S1250000x64_1_0_n_n_0_1_164_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowMax.lean ====
/-
  The maximum along the rows of an [a, b] array, started from −∞, read at a row.

  A kernel takes it as a lane reduction whose accumulator is the word of −∞, the host as a one-operand reduce whose
  initial value is the scalar constant −∞. On the extended reals both are, at row p, the maximum over k of the entries
  (p, k), with −∞ (the bottom element) the maximum of no entries; the order in which the entries are met does not
  matter since the maximum is commutative and associative. Stated for any extents a and b.
-/
import Idealize.ShloMosaic.Lib.Pipeline.Value
import Idealize.ShloMosaic.Lib.ValueIdx
import Idealize.ShloMosaic.PureOps.Ideal.Laws
import proofs.«137249_j15212774163210_2_alg».proof.Proof.LibKeepdims

noncomputable section

namespace RowMax

open Idealize.ShloMosaic Idealize.ShloMosaic.ValueIdx

/-- The word of −∞ denotes the bottom of the extended reals. -/
theorem ofBits_neg_inf : Ideal.ofBits .f32 0xFF800000#32 = (⊥ : EReal) := by simp [Ideal.ofBits, Ideal.ieee]

/-- Reading the source along row p: lane k put back over p is the entry (p, k). -/
theorem comp_lift {a b : ℕ} (src : (⟨2, ![a, b]⟩ : Shape).Idx → EReal)
    (h : (⟨2, ![a, b]⟩ : Shape).Reduces [1] (⟨1, ![a]⟩ : Shape)) (p : Fin a) :
    (src ∘ h.lift (ix1 p)) = fun k : Fin b => src (ix2 p k) :=
  funext fun k => congrArg src (Keepdims.lift_lane h p k)

/-- A kernel's lane maximum from −∞, at row p. -/
theorem laneMax_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [comp_lift src h p]
  show Finset.fold max (Ideal.ofBits .f32 0xFF800000#32) _ _ = _
  rw [ofBits_neg_inf]
  rfl

/-- The host's maximum-reduce along the rows from the scalar −∞, at row p. -/
theorem hostMax_apply {a b : ℕ} (src : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce (FloatOps.maximumf (F := Ideal) (φ := .f32)) src (constant (F := Ideal) ⟨0, ![]⟩ .f32 0xFF800000#32) h' hu (ix1 p)
      = (Finset.univ : Finset (Fin b)).fold max ⊥ (fun k => src (ix2 p k)) := by
  rw [Host.reduce_eq_fold_single (FloatOps.maximumf (F := Ideal) (φ := .f32)) src _ h' h hu (ix1 p), comp_lift src h p]
  show Finset.fold max (Ideal.ofBits .f32 0xFF800000#32) _ _ = _
  rw [ofBits_neg_inf]
  rfl

end RowMax

end
-- ==== Proof.LibSoftmaxTile.lean ====
/-
  The row softmax of an [a, b] tile as a kernel takes it, read at an entry.

  With s the row p of the tile, the kernel computes
    m     = max(−∞, max_k s_k)          (a lane maximum started from the word of −∞, then once more against −∞),
    e_j   = exp(s_j − m),
    P_j   = e_j / Σ_k e_k               (a lane sum started from the zero word),
  the two row vectors kept as [a, 1] columns and spread back over [a, b]. On the extended reals the entry (p, j) of
  the result is `prob s j` below: the order in which a row's entries meet the maximum or the sum does not matter,
  and nothing is rounded. Stated for any extents a and b; no entry is assumed finite (the same expression is read
  on both sides of a comparison, so its value at infinite entries never has to be computed).
-/
import Idealize.ShloMosaic.Lib.Pipeline.Value
import Idealize.ShloMosaic.Lib.ValueIdx
import Idealize.ShloMosaic.PureOps.Ideal.Laws
import proofs.«137249_j15212774163210_2_alg».proof.Proof.LibKeepdims
import proofs.«137249_j15212774163210_2_alg».proof.Proof.LibRowMax

noncomputable section

namespace SoftmaxTile

open Idealize.ShloMosaic Idealize.ShloMosaic.ValueIdx

/-- The shift of a row: the larger of −∞ (spelt as its word) and the row's maximum taken from −∞. -/
def shift {n : ℕ} (s : Fin n → EReal) : EReal :=
  max (Ideal.ofBits .f32 0xFF800000#32) ((Finset.univ : Finset (Fin n)).fold max ⊥ s)

/-- The shifted exponential of entry j of a row. -/
def num {n : ℕ} (s : Fin n → EReal) (j : Fin n) : EReal := Ideal.exp (s j - shift s)

/-- Entry j of the softmax of a row: exp(s_j − m) / Σ_k exp(s_k − m), the quotient being the extended reals' own. -/
def prob {n : ℕ} (s : Fin n → EReal) (j : Fin n) : EReal := Ideal.div (num s j) (∑ k : Fin n, num s k)

variable {a b : ℕ}

/-- The column of row shifts as the kernel forms it. -/
def shiftVec (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32) : FVec Ideal ⟨1, ![a]⟩ .f32 :=
  maximumf (broadcast ⟨1, ![a]⟩ (Scalar.ofBits (F := Ideal) .f32 0xFF800000#32))
    (multiReduction .maximumf [1] ⟨1, ![a]⟩ S 0xFF800000#32 hr hφ hm)

/-- The tile of shifted exponentials as the kernel forms it. -/
def numTile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩ (shapeCast ⟨2, ![a, 1]⟩ (shiftVec S hr hφ hm) hc) hb))

/-- The softmax tile as the kernel forms it: the exponentials over their row sums. -/
def tile (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (numTile S hr hφ hm hc hb)
    (broadcastTo ⟨2, ![a, b]⟩
      (shapeCast ⟨2, ![a, 1]⟩ (multiReduction .add [1] ⟨1, ![a]⟩ (numTile S hr hφ hm hc hb) 0x00000000#32 hr hφ hz) hc) hb)

/-- The shift column at row p is the shift of row p. -/
theorem shiftVec_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32) (p : Fin a) :
    shiftVec S hr hφ hm (ix1 p) = shift fun k => S (ix2 p k) :=
  congrArg (max (Ideal.ofBits .f32 0xFF800000#32)) (RowMax.laneMax_apply S hr hφ hm p)

/-- The exponential tile at (p, k) is the shifted exponential of entry k of row p. -/
theorem numTile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩)
    (p : Fin a) (k : Fin b) :
    numTile S hr hφ hm hc hb (ix2 p k) = num (fun k => S (ix2 p k)) k := by
  show Ideal.exp (S (ix2 p k) - broadcastTo ⟨2, ![a, b]⟩ (shapeCast ⟨2, ![a, 1]⟩ (shiftVec S hr hφ hm) hc) hb (ix2 p k)) = _
  rw [Keepdims.broadcastTo_a1_ab_apply, Keepdims.shapeCast_a_a1_apply, shiftVec_apply]
  rfl

/-- The softmax tile at (p, j) is entry j of the softmax of row p. -/
theorem tile_apply (S : FVec Ideal ⟨2, ![a, b]⟩ .f32) (hr : (⟨2, ![a, b]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (p : Fin a) (j : Fin b) :
    tile S hr hφ hm hz hc hb (ix2 p j) = prob (fun k => S (ix2 p k)) j := by
  show Ideal.div (numTile S hr hφ hm hc hb (ix2 p j))
      (broadcastTo ⟨2, ![a, b]⟩ (shapeCast ⟨2, ![a, 1]⟩
        (multiReduction .add [1] ⟨1, ![a]⟩ (numTile S hr hφ hm hc hb) 0x00000000#32 hr hφ hz) hc) hb (ix2 p j)) = _
  rw [Keepdims.broadcastTo_a1_ab_apply, Keepdims.shapeCast_a_a1_apply, Keepdims.laneSum_apply, numTile_apply]
  exact congrArg (Ideal.div _) (Finset.sum_congr rfl fun k _ => numTile_apply S hr hφ hm hc hb p k)

end SoftmaxTile

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibAttnAgg.lean ====
/-
  Attention-weighted aggregation of the rows of a table, read at an entry.

  For a row x of a table [n, d], a row u of an interaction table [n, d] and an aspect table a of [d, d]:
    s_j   = Σ_k x_k · a_{j,k}                    (the row's scores against the aspects, x · aᵀ),
    P_j   = softmax(s)_j                          (shifted by the row maximum taken from −∞),
    g_q   = Σ_k u_k · a_{k,q}                     (the aggregated aspects, u · a),
    out_q = g_q · (Σ_j P_j) + g_q.
  A kernel forms it on a tile of rows (two matrix products into zero accumulators, the lane reductions kept as
  [a, 1] columns and spread back); the host forms it on the whole table (two dot_generals, one-operand reduces,
  broadcast_in_dim columns). On the extended reals both are `rowOut` of the rows at every entry: each sum and
  maximum is over the same finite set, the order of the terms does not matter and nothing is rounded. No entry
  is assumed finite: the same expression stands on both sides. Stated for any extents n (rows) and d.
-/
import Idealize.ShloMosaic.Lib.Pipeline.Value
import Idealize.ShloMosaic.Lib.ValueIdx
import Idealize.ShloMosaic.PureOps.Ideal.Laws
import proofs.«137249_j15212774163210_2_alg».proof.Proof.LibKeepdims
import proofs.«137249_j15212774163210_2_alg».proof.Proof.LibRowMax
import proofs.«137249_j15212774163210_2_alg».proof.Proof.LibSoftmaxTile
import proofs.«137249_j15212774163210_2_alg».proof.Proof.LibPlainDot

noncomputable section

namespace AttnAgg

open Idealize.ShloMosaic Idealize.ShloMosaic.ValueIdx
open scoped BigOperators

/-! ## The row function -/

/-- The scores of a row against the aspects: s_j = Σ_k x_k · a_{j,k}. -/
def score {d : ℕ} (x : Fin d → EReal) (a : Fin d → Fin d → EReal) (j : Fin d) : EReal := ∑ k : Fin d, x k * a j k

/-- The aggregated aspects of a row: g_q = Σ_k u_k · a_{k,q}. -/
def agg {d : ℕ} (u : Fin d → EReal) (a : Fin d → Fin d → EReal) (q : Fin d) : EReal := ∑ k : Fin d, u k * a k q

/-- Entry q of the result row: g_q · (Σ_j softmax(s)_j) + g_q. -/
def rowOut {d : ℕ} (x u : Fin d → EReal) (a : Fin d → Fin d → EReal) (q : Fin d) : EReal :=
  agg u a q * (∑ j : Fin d, SoftmaxTile.prob (score x a) j) + agg u a q

/-- The whole result table: entry (r, q) is `rowOut` of rows r of the two tables. -/
def whole {n d : ℕ} (X U : (⟨2, ![n, d]⟩ : Shape).Idx → EReal) (A : (⟨2, ![d, d]⟩ : Shape).Idx → EReal) :
    (⟨2, ![n, d]⟩ : Shape).Idx → EReal :=
  fun i => rowOut (fun k => X (ix2 (i 0) k)) (fun k => U (ix2 (i 0) k)) (fun j k => A (ix2 j k)) (i 1)

theorem whole_apply {n d : ℕ} (X U : (⟨2, ![n, d]⟩ : Shape).Idx → EReal) (A : (⟨2, ![d, d]⟩ : Shape).Idx → EReal)
    (r : Fin n) (q : Fin d) :
    whole X U A (ix2 r q) = rowOut (fun k => X (ix2 r k)) (fun k => U (ix2 r k)) (fun j k => A (ix2 j k)) q := rfl

/-! ## The transposed aspect table -/

/-- The transpose of a square table at (k, j) is the table at (j, k). -/
theorem transpose_apply_sq {d : ℕ} {α : Type} (A : (⟨2, ![d, d]⟩ : Shape).Idx → α)
    (ht : (⟨2, ![d, d]⟩ : Shape).Transposes [1, 0] ⟨2, ![d, d]⟩) (k j : Fin d) :
    transpose ⟨2, ![d, d]⟩ [1, 0] A ht (ix2 k j) = A (ix2 j k) :=
  transpose_apply [1, 0] A ht (ix2 k j) (ix2 j k) fun b => match b with
    | ⟨0, _⟩ => rfl
    | ⟨1, _⟩ => rfl

/-! ## A kernel's tile -/

section Kernel

variable {a d : ℕ}

/-- The score tile as a kernel forms it: the rows against the transposed aspect table, into the zero accumulator. -/
def scoreTile (x : FVec Ideal ⟨2, ![a, d]⟩ .f32) (A : FVec Ideal ⟨2, ![d, d]⟩ .f32)
    (ht : (⟨2, ![d, d]⟩ : Shape).Transposes [1, 0] ⟨2, ![d, d]⟩) : FVec Ideal ⟨2, ![a, d]⟩ .f32 :=
  FloatOps.matmul (DotDims.plain a d d) none x (transpose ⟨2, ![d, d]⟩ [1, 0] A ht) (constant ⟨2, ![a, d]⟩ .f32 0x00000000#32)

/-- The score tile at (p, j) is score j of row p. -/
theorem scoreTile_apply (x : FVec Ideal ⟨2, ![a, d]⟩ .f32) (A : FVec Ideal ⟨2, ![d, d]⟩ .f32)
    (ht : (⟨2, ![d, d]⟩ : Shape).Transposes [1, 0] ⟨2, ![d, d]⟩) (p : Fin a) (j : Fin d) :
    scoreTile x A ht (ix2 p j) = score (fun k => x (ix2 p k)) (fun j k => A (ix2 j k)) j := by
  unfold scoreTile score
  rw [Cert.PlainDot.matmul_zero_apply]
  exact Finset.sum_congr rfl fun k _ => congrArg (x (ix2 p k) * ·) (transpose_apply_sq A ht k j)

/-- The result tile as a kernel forms it. -/
def kernelTile (x u : FVec Ideal ⟨2, ![a, d]⟩ .f32) (A : FVec Ideal ⟨2, ![d, d]⟩ .f32)
    (ht : (⟨2, ![d, d]⟩ : Shape).Transposes [1, 0] ⟨2, ![d, d]⟩)
    (hr : (⟨2, ![a, d]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, d]⟩) :
    FVec Ideal ⟨2, ![a, d]⟩ .f32 :=
  addf (mulf (FloatOps.matmul (DotDims.plain a d d) none u A (constant ⟨2, ![a, d]⟩ .f32 0x00000000#32))
      (broadcastTo ⟨2, ![a, d]⟩ (shapeCast ⟨2, ![a, 1]⟩
        (multiReduction .add [1] ⟨1, ![a]⟩ (SoftmaxTile.tile (scoreTile x A ht) hr hφ hm hz hc hb) 0x00000000#32 hr hφ hz) hc) hb))
    (FloatOps.matmul (DotDims.plain a d d) none u A (constant ⟨2, ![a, d]⟩ .f32 0x00000000#32))

/-- The result tile at (p, q) is entry q of the result row of rows p. -/
theorem kernelTile_apply (x u : FVec Ideal ⟨2, ![a, d]⟩ .f32) (A : FVec Ideal ⟨2, ![d, d]⟩ .f32)
    (ht : (⟨2, ![d, d]⟩ : Shape).Transposes [1, 0] ⟨2, ![d, d]⟩)
    (hr : (⟨2, ![a, d]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, d]⟩)
    (p : Fin a) (q : Fin d) :
    kernelTile x u A ht hr hφ hm hz hc hb (ix2 p q)
      = rowOut (fun k => x (ix2 p k)) (fun k => u (ix2 p k)) (fun j k => A (ix2 j k)) q := by
  show FloatOps.matmul (DotDims.plain a d d) none u A (constant ⟨2, ![a, d]⟩ .f32 0x00000000#32) (ix2 p q)
      * broadcastTo ⟨2, ![a, d]⟩ (shapeCast ⟨2, ![a, 1]⟩
        (multiReduction .add [1] ⟨1, ![a]⟩ (SoftmaxTile.tile (scoreTile x A ht) hr hφ hm hz hc hb) 0x00000000#32 hr hφ hz) hc) hb (ix2 p q)
      + FloatOps.matmul (DotDims.plain a d d) none u A (constant ⟨2, ![a, d]⟩ .f32 0x00000000#32) (ix2 p q) = _
  rw [Keepdims.broadcastTo_a1_ab_apply, Keepdims.shapeCast_a_a1_apply, Keepdims.laneSum_apply, Cert.PlainDot.matmul_zero_apply]
  have hs : ∀ j : Fin d, SoftmaxTile.tile (scoreTile x A ht) hr hφ hm hz hc hb (ix2 p j)
      = SoftmaxTile.prob (score (fun k => x (ix2 p k)) (fun j k => A (ix2 j k))) j := fun j => by
    rw [SoftmaxTile.tile_apply]
    exact congrArg (SoftmaxTile.prob · j) (funext fun k => scoreTile_apply x A ht p k)
  rw [Finset.sum_congr rfl fun j _ => hs j]
  rfl

end Kernel

/-! ## The host's whole table -/

section Host

variable {n d : ℕ}

/-- A vector [n] made a column [n, 1] and spread over [n, d], as the host writes a keepdims row reduction. -/
def col (hb1 : (⟨1, ![n]⟩ : Shape).BroadcastsInDim ⟨2, ![n, 1]⟩ ![0])
    (hb2 : (⟨2, ![n, 1]⟩ : Shape).BroadcastsInDim ⟨2, ![n, d]⟩ ![0, 1]) (v : FVec Ideal ⟨1, ![n]⟩ .f32) :
    FVec Ideal ⟨2, ![n, d]⟩ .f32 :=
  broadcastInDim ⟨2, ![n, d]⟩ ![0, 1] hb2 (broadcastInDim ⟨2, ![n, 1]⟩ ![0] hb1 v)

/-- The spread column at (r, q) is the vector at r. -/
theorem col_apply (hb1 : (⟨1, ![n]⟩ : Shape).BroadcastsInDim ⟨2, ![n, 1]⟩ ![0])
    (hb2 : (⟨2, ![n, 1]⟩ : Shape).BroadcastsInDim ⟨2, ![n, d]⟩ ![0, 1]) (v : FVec Ideal ⟨1, ![n]⟩ .f32)
    (r : Fin n) (q : Fin d) : col hb1 hb2 v (ix2 r q) = v (ix1 r) := by
  unfold col
  refine (broadcastInDim_apply ![0, 1] hb2 _ (ix2 r q) (ix2 r (0 : Fin 1)) fun ax => ?_).trans ?_
  · match ax with
    | ⟨0, _⟩ =>
      show r.val = if n = 1 then 0 else r.val
      split
      · have := r.isLt; omega
      · rfl
    | ⟨1, _⟩ => rfl
  · refine broadcastInDim_apply ![0] hb1 v (ix2 r (0 : Fin 1)) (ix1 r) fun ax => ?_
    match ax with
    | ⟨0, _⟩ =>
      show r.val = if n = 1 then 0 else r.val
      split
      · have := r.isLt; omega
      · rfl

/-- The host's sum along the rows from the scalar zero, at row r. -/
theorem hostSum_apply (src : FVec Ideal ⟨2, ![n, d]⟩ .f32)
    (hrt : (⟨2, ![n, d]⟩ : Shape).ReducesTo [1] (⟨1, ![n]⟩ : Shape))
    (hr : (⟨2, ![n, d]⟩ : Shape).Reduces [1] (⟨1, ![n]⟩ : Shape)) (hu : 0 < (⟨0, ![]⟩ : Shape).numel) (r : Fin n) :
    Host.reduceAdd src (constant (F := Ideal) ⟨0, ![]⟩ .f32 0x00000000#32) hrt hu (ix1 r) = ∑ k : Fin d, src (ix2 r k) := by
  simp only [Host.reduceAdd, Ideal.hostReduceAdd_def]
  rw [Ideal.hostReduceAdd_single hrt hr]
  show Ideal.ofBits .f32 0x00000000#32 + _ = _
  rw [Ideal.ofBits_zero_f32, zero_add]
  exact Finset.sum_congr rfl fun k _ => congrArg src (Keepdims.lift_lane hr r k)

/-- The score table as the host forms it. -/
def hostScore (x : FVec Ideal ⟨2, ![n, d]⟩ .f32) (A : FVec Ideal ⟨2, ![d, d]⟩ .f32)
    (ht : (⟨2, ![d, d]⟩ : Shape).Transposes [1, 0] ⟨2, ![d, d]⟩) : FVec Ideal ⟨2, ![n, d]⟩ .f32 :=
  Host.dotGeneral (DotDims.plain n d d) none x (transpose ⟨2, ![d, d]⟩ [1, 0] A ht)

theorem hostScore_apply (x : FVec Ideal ⟨2, ![n, d]⟩ .f32) (A : FVec Ideal ⟨2, ![d, d]⟩ .f32)
    (ht : (⟨2, ![d, d]⟩ : Shape).Transposes [1, 0] ⟨2, ![d, d]⟩) (r : Fin n) (j : Fin d) :
    hostScore x A ht (ix2 r j) = score (fun k => x (ix2 r k)) (fun j k => A (ix2 j k)) j := by
  unfold hostScore score
  simp only [Host.dotGeneral]
  rw [Cert.PlainDot.dotGeneral_apply]
  exact Finset.sum_congr rfl fun k _ => congrArg (x (ix2 r k) * ·) (transpose_apply_sq A ht k j)

variable (hrt : (⟨2, ![n, d]⟩ : Shape).ReducesTo [1] (⟨1, ![n]⟩ : Shape)) (hu : 0 < (⟨0, ![]⟩ : Shape).numel)
  (hb0 : (⟨0, ![]⟩ : Shape).BroadcastsInDim ⟨1, ![n]⟩ ![])
  (hb1 : (⟨1, ![n]⟩ : Shape).BroadcastsInDim ⟨2, ![n, 1]⟩ ![0])
  (hb2 : (⟨2, ![n, 1]⟩ : Shape).BroadcastsInDim ⟨2, ![n, d]⟩ ![0, 1])

/-- The vector of row shifts as the host forms it: −∞ spread, against the row maxima taken from −∞. -/
def hostShift (S : FVec Ideal ⟨2, ![n, d]⟩ .f32) : FVec Ideal ⟨1, ![n]⟩ .f32 :=
  maximumf (broadcastInDim ⟨1, ![n]⟩ ![] hb0 (constant (F := Ideal) ⟨0, ![]⟩ .f32 0xFF800000#32))
    (Host.reduce FloatOps.maximumf S (constant (F := Ideal) ⟨0, ![]⟩ .f32 0xFF800000#32) hrt hu)

theorem hostShift_apply (S : FVec Ideal ⟨2, ![n, d]⟩ .f32)
    (hr : (⟨2, ![n, d]⟩ : Shape).Reduces [1] (⟨1, ![n]⟩ : Shape)) (r : Fin n) :
    hostShift hrt hu hb0 S (ix1 r) = SoftmaxTile.shift fun k => S (ix2 r k) := by
  show max (broadcastInDim ⟨1, ![n]⟩ ![] hb0 (constant (F := Ideal) ⟨0, ![]⟩ .f32 0xFF800000#32) (ix1 r))
      (Host.reduce FloatOps.maximumf S (constant (F := Ideal) ⟨0, ![]⟩ .f32 0xFF800000#32) hrt hu (ix1 r)) = _
  rw [RowMax.hostMax_apply S hrt hr hu r,
    broadcastInDim_apply ![] hb0 (constant (F := Ideal) ⟨0, ![]⟩ .f32 0xFF800000#32) (ix1 r) ix0 fun ax => ax.elim0]
  rfl

/-- The table of shifted exponentials as the host forms it. -/
def hostNum (S : FVec Ideal ⟨2, ![n, d]⟩ .f32) : FVec Ideal ⟨2, ![n, d]⟩ .f32 :=
  Host.exp (subf S (col hb1 hb2 (hostShift hrt hu hb0 S)))

theorem hostNum_apply (S : FVec Ideal ⟨2, ![n, d]⟩ .f32)
    (hr : (⟨2, ![n, d]⟩ : Shape).Reduces [1] (⟨1, ![n]⟩ : Shape)) (r : Fin n) (k : Fin d) :
    hostNum hrt hu hb0 hb1 hb2 S (ix2 r k) = SoftmaxTile.num (fun k => S (ix2 r k)) k := by
  show Ideal.exp (S (ix2 r k) - col hb1 hb2 (hostShift hrt hu hb0 S) (ix2 r k)) = _
  rw [col_apply, hostShift_apply hrt hu hb0 S hr r]
  rfl

/-- The softmax table as the host forms it. -/
def hostProb (S : FVec Ideal ⟨2, ![n, d]⟩ .f32) : FVec Ideal ⟨2, ![n, d]⟩ .f32 :=
  Host.divf (hostNum hrt hu hb0 hb1 hb2 S)
    (col hb1 hb2 (Host.reduceAdd (hostNum hrt hu hb0 hb1 hb2 S) (constant (F := Ideal) ⟨0, ![]⟩ .f32 0x00000000#32) hrt hu))

theorem hostProb_apply (S : FVec Ideal ⟨2, ![n, d]⟩ .f32)
    (hr : (⟨2, ![n, d]⟩ : Shape).Reduces [1] (⟨1, ![n]⟩ : Shape)) (r : Fin n) (j : Fin d) :
    hostProb hrt hu hb0 hb1 hb2 S (ix2 r j) = SoftmaxTile.prob (fun k => S (ix2 r k)) j := by
  show Ideal.div (hostNum hrt hu hb0 hb1 hb2 S (ix2 r j))
      (col hb1 hb2 (Host.reduceAdd (hostNum hrt hu hb0 hb1 hb2 S) (constant (F := Ideal) ⟨0, ![]⟩ .f32 0x00000000#32) hrt hu) (ix2 r j)) = _
  rw [col_apply, hostSum_apply _ hrt hr hu r, hostNum_apply hrt hu hb0 hb1 hb2 S hr r j]
  exact congrArg (Ideal.div _) (Finset.sum_congr rfl fun k _ => hostNum_apply hrt hu hb0 hb1 hb2 S hr r k)

/-- The result table as the host forms it. -/
def hostTable (x u : FVec Ideal ⟨2, ![n, d]⟩ .f32) (A : FVec Ideal ⟨2, ![d, d]⟩ .f32)
    (ht : (⟨2, ![d, d]⟩ : Shape).Transposes [1, 0] ⟨2, ![d, d]⟩) : FVec Ideal ⟨2, ![n, d]⟩ .f32 :=
  addf (mulf (Host.dotGeneral (DotDims.plain n d d) none u A)
      (col hb1 hb2 (Host.reduceAdd (hostProb hrt hu hb0 hb1 hb2 (hostScore x A ht))
        (constant (F := Ideal) ⟨0, ![]⟩ .f32 0x00000000#32) hrt hu)))
    (Host.dotGeneral (DotDims.plain n d d) none u A)

/-- The host's result table is the whole result table. -/
theorem hostTable_eq (x u : FVec Ideal ⟨2, ![n, d]⟩ .f32) (A : FVec Ideal ⟨2, ![d, d]⟩ .f32)
    (ht : (⟨2, ![d, d]⟩ : Shape).Transposes [1, 0] ⟨2, ![d, d]⟩)
    (hr : (⟨2, ![n, d]⟩ : Shape).Reduces [1] (⟨1, ![n]⟩ : Shape)) :
    hostTable hrt hu hb0 hb1 hb2 x u A ht = whole x u A := by
  funext i
  obtain ⟨r, q, rfl⟩ : ∃ (r : Fin n) (q : Fin d), i = ix2 r q := ⟨i 0, i 1, eq_ix2 i⟩
  show FloatOps.dotGeneral (DotDims.plain n d d) none .single u A (ix2 r q)
      * col hb1 hb2 (Host.reduceAdd (hostProb hrt hu hb0 hb1 hb2 (hostScore x A ht))
          (constant (F := Ideal) ⟨0, ![]⟩ .f32 0x00000000#32) hrt hu) (ix2 r q)
      + FloatOps.dotGeneral (DotDims.plain n d d) none .single u A (ix2 r q) = _
  rw [col_apply, hostSum_apply _ hrt hr hu r, Cert.PlainDot.dotGeneral_apply]
  have hs : ∀ j : Fin d, hostProb hrt hu hb0 hb1 hb2 (hostScore x A ht) (ix2 r j)
      = SoftmaxTile.prob (score (fun k => x (ix2 r k)) (fun j k => A (ix2 j k))) j := fun j => by
    rw [hostProb_apply hrt hu hb0 hb1 hb2 _ hr r j]
    exact congrArg (SoftmaxTile.prob · j) (funext fun k => hostScore_apply x A ht r k)
  rw [Finset.sum_congr rfl fun j _ => hs j]
  rfl

end Host

end AttnAgg

end
-- ==== Proof.KernelBlocks.lean ====
/-
  What each of the two kernel launches leaves in its result table, as one function of the tables it reads.

  A launch walks its table in blocks of 5000 rows: at grid point t it reads rows 5000·t … 5000·t + 4999 of the
  embedding table and of the interaction table, the whole aspect table, and writes the same rows of the result.
  A result row depends on its own rows of the two tables only, so block t of the result is block t of the whole
  result table `AttnAgg.whole`; the blocks cover every row (row r lies in block r / 5000), so the result array
  after the launch is that table. Stated for any contents of the buffers at the launch's entry.
-/
import proofs.«137249_j15212774163210_2_alg».proof.Proof.Gen.KernelIdeal.Frame
import proofs.«137249_j15212774163210_2_alg».proof.Proof.LibAttnAgg
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic is the tile form -/

/-- The first launch's stored value is the attention-aggregation tile of its three loaded blocks. -/
theorem pay0_eq (v0 v19 : Vec Ideal S5000x64 .f32) (v2 : Vec Ideal S64x64 .f32) :
    k0_pay1 (F := Ideal) v0 v2 v19
      = AttnAgg.kernelTile (a := 5000) (d := 64) v0 v19 v2 transposes_S64x64_p1_0_S64x64 reduces_S5000x64_S5000
          (.inl rfl) rfl rfl shapeCasts_S5000_S5000x1 broadcasts_S5000x1_S5000x64 := rfl

/-- The second launch runs the same body. -/
theorem pay1_eq (v0 v19 : Vec Ideal S5000x64 .f32) (v2 : Vec Ideal S64x64 .f32) :
    k1_pay1 (F := Ideal) v0 v2 v19 = k0_pay1 (F := Ideal) v0 v2 v19 := rfl

/-- One entry of a block: if row p of the two loaded blocks is row r of the two tables and the aspect block is the
    aspect table, the stored value at (p, q) is the whole result table at (r, q). -/
theorem entry_eq {n : ℕ} (X U : (⟨2, ![n, 64]⟩ : Shape).Idx → EReal) (A : (⟨2, ![64, 64]⟩ : Shape).Idx → EReal)
    (x0 x1 : Vec Ideal S5000x64 .f32) (x2 : Vec Ideal S64x64 .f32) (p : Fin 5000) (q : Fin 64) (r : Fin n)
    (h0 : ∀ k : Fin 64, x0 (ix2 p k) = X (ix2 r k)) (h1 : ∀ k : Fin 64, x1 (ix2 p k) = U (ix2 r k))
    (h2 : ∀ j k : Fin 64, x2 (ix2 j k) = A (ix2 j k)) :
    k0_pay1 (F := Ideal) x0 x2 x1 (ix2 p q) = AttnAgg.whole X U A (ix2 r q) := by
  rw [pay0_eq, AttnAgg.kernelTile_apply, AttnAgg.whole_apply,
    show (fun k => x0 (ix2 p k)) = fun k => X (ix2 r k) from funext h0,
    show (fun k => x1 (ix2 p k)) = fun k => U (ix2 r k) from funext h1,
    show (fun j k => x2 (ix2 j k)) = fun j k => A (ix2 j k) from funext fun j => funext (h2 j)]

/-- The same at an index of the block and an index of the table given by their coordinates. -/
theorem entry_eq' {n : ℕ} (X U : (⟨2, ![n, 64]⟩ : Shape).Idx → EReal) (A : (⟨2, ![64, 64]⟩ : Shape).Idx → EReal)
    (x0 x1 : Vec Ideal S5000x64 .f32) (x2 : Vec Ideal S64x64 .f32) (y : S5000x64.Idx) (i : (⟨2, ![n, 64]⟩ : Shape).Idx)
    (h0 : ∀ k : Fin 64, x0 (ix2 (y 0) k) = X (ix2 (i 0) k)) (h1 : ∀ k : Fin 64, x1 (ix2 (y 0) k) = U (ix2 (i 0) k))
    (h2 : ∀ j k : Fin 64, x2 (ix2 j k) = A (ix2 j k)) (hq : (y 1).val = (i 1).val) :
    k0_pay1 (F := Ideal) x0 x2 x1 y = AttnAgg.whole X U A i := by
  have hy : y = ix2 (y 0) (y 1) := eq_ix2 y
  have hi : i = ix2 (i 0) (y 1) := (eq_ix2 i).trans (congrArg (ix2 (i 0)) (Fin.ext hq.symm))
  rw [hy, hi]
  exact entry_eq X U A x0 x1 x2 (y 0) (y 1) (i 0) h0 h1 h2

theorem hz : (![0, 0] : Fin 2 → Nat) = fun _ => 0 := funext fun a => by fin_cases a <;> rfl

variable (V : (c : Dev nD) → (b : Ref sig .tc) → Buf (Elt Ideal) ((c : Thread nD τ).loc b))

/-! ## The first launch (the user table, 20 blocks) -/

/-- The printed index maps over the grid: the two row-blocked inputs and the output are at block row t, the aspect
    table at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole result table of the tables as the launch finds them. -/
theorem flushed0_eq (c : Dev nD) (t : Fin cfg0.N) :
    (dat0 V c).flushed 3 t = ((cfg0.win 3).blk t).view.read (Elt Ideal)
      (AttnAgg.whole (n := 100000) (d := 64) (V c main_arg2) (V c main_arg6) (V c main_arg3)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  obtain ⟨e0, e1, e2, e3, e4, e5, e6, e7⟩ := idx_facts0 t
  funext y
  refine entry_eq' (n := 100000) (V c main_arg2) (V c main_arg6) (V c main_arg3) (iblk0 V c 0 t) (iblk0 V c 1 t) (iblk0 V c 2 t)
    y (((cfg0.win 3).blk t).view.emb y) (fun k => ?_) (fun k => ?_) (fun j k => ?_) ?_
  · show V c main_arg2 (((cfg0.win 0).blk t).view.emb (ix2 (y 0) k)) = V c main_arg2 (ix2 ((((cfg0.win 3).blk t).view.emb y) 0) k)
    refine congrArg (V c main_arg2) (funext fun a => Fin.ext ?_)
    match a with
    | ⟨0, _⟩ => show win0_0.index t (0 : Fin 2) * 5000 + 1 * (y 0).val = win0_3.index t (0 : Fin 2) * 5000 + 1 * (y 0).val; rw [e0, e6]
    | ⟨1, _⟩ => show win0_0.index t (1 : Fin 2) * 64 + 1 * k.val = k.val; rw [e1]; omega
  · show V c main_arg6 (((cfg0.win 1).blk t).view.emb (ix2 (y 0) k)) = V c main_arg6 (ix2 ((((cfg0.win 3).blk t).view.emb y) 0) k)
    refine congrArg (V c main_arg6) (funext fun a => Fin.ext ?_)
    match a with
    | ⟨0, _⟩ => show win0_1.index t (0 : Fin 2) * 5000 + 1 * (y 0).val = win0_3.index t (0 : Fin 2) * 5000 + 1 * (y 0).val; rw [e2, e6]
    | ⟨1, _⟩ => show win0_1.index t (1 : Fin 2) * 64 + 1 * k.val = k.val; rw [e3]; omega
  · show V c main_arg3 (((cfg0.win 2).blk t).view.emb (ix2 j k)) = V c main_arg3 (ix2 j k)
    refine congrArg (V c main_arg3) (funext fun a => Fin.ext ?_)
    match a with
    | ⟨0, _⟩ => show win0_2.index t (0 : Fin 2) * 64 + 1 * j.val = j.val; rw [e4]; omega
    | ⟨1, _⟩ => show win0_2.index t (1 : Fin 2) * 64 + 1 * k.val = k.val; rw [e5]; omega
  · show (y 1).val = win0_3.index t (1 : Fin 2) * 64 + 1 * (y 1).val
    rw [e7]; omega

/-- An index of the result table is in point t's block iff each coordinate is in the block's range. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v32).slice (win0_3.rect t)).set ↔ _
  rw [View.set_slice_whole, Rect.mem_set_unit]
  exact Iff.rfl

/-- Every row of the result table lies in some point's block: row r in block r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨-, -, -, -, -, -, e6, e7⟩ := idx_facts0 ⟨(i 0).val / 5000, by rw [hN]; omega⟩
  refine ⟨⟨(i 0).val / 5000, by rw [hN]; omega⟩, flush0_3 _, ?_⟩
  rw [mem_blk0]
  intro a
  match a with
  | ⟨0, _⟩ =>
    show win0_3.index _ (0 : Fin 2) * 5000 ≤ (i 0).val ∧ (i 0).val < win0_3.index _ (0 : Fin 2) * 5000 + 5000
    rw [e6]
    show (i 0).val / 5000 * 5000 ≤ (i 0).val ∧ (i 0).val < (i 0).val / 5000 * 5000 + 5000
    omega
  | ⟨1, _⟩ =>
    show win0_3.index _ (1 : Fin 2) * 64 ≤ (i 1).val ∧ (i 1).val < win0_3.index _ (1 : Fin 2) * 64 + 64
    rw [e7]
    omega

/-- The first launch's result array after the launch is the whole result table of the tables it read. -/
theorem final0 (c : Dev nD) :
    (dat0 V c).arrAt 3 cfg0.N = AttnAgg.whole (n := 100000) (d := 64) (V c main_arg2) (V c main_arg6) (V c main_arg3) :=
  (dat0 V c).arrAt_eq_of_cover 3 _ (fun t _ => flushed0_eq V c t) cover0

/-! ## The second launch (the item table, 10 blocks) -/

/-- The printed index maps over the grid: the two row-blocked inputs and the output are at block row t, the aspect
    table at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole result table of the tables as the launch finds them. -/
theorem flushed1_eq (c : Dev nD) (t : Fin cfg1.N) :
    (dat1 V c).flushed 3 t = ((cfg1.win 3).blk t).view.read (Elt Ideal)
      (AttnAgg.whole (n := 50000) (d := 64) (V c main_arg1) (V c main_arg7) (V c main_arg3)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz]
  obtain ⟨e0, e1, e2, e3, e4, e5, e6, e7⟩ := idx_facts1 t
  rw [pay1_eq]
  funext y
  refine entry_eq' (n := 50000) (V c main_arg1) (V c main_arg7) (V c main_arg3) (iblk1 V c 0 t) (iblk1 V c 1 t) (iblk1 V c 2 t)
    y (((cfg1.win 3).blk t).view.emb y) (fun k => ?_) (fun k => ?_) (fun j k => ?_) ?_
  · show V c main_arg1 (((cfg1.win 0).blk t).view.emb (ix2 (y 0) k)) = V c main_arg1 (ix2 ((((cfg1.win 3).blk t).view.emb y) 0) k)
    refine congrArg (V c main_arg1) (funext fun a => Fin.ext ?_)
    match a with
    | ⟨0, _⟩ => show win1_0.index t (0 : Fin 2) * 5000 + 1 * (y 0).val = win1_3.index t (0 : Fin 2) * 5000 + 1 * (y 0).val; rw [e0, e6]
    | ⟨1, _⟩ => show win1_0.index t (1 : Fin 2) * 64 + 1 * k.val = k.val; rw [e1]; omega
  · show V c main_arg7 (((cfg1.win 1).blk t).view.emb (ix2 (y 0) k)) = V c main_arg7 (ix2 ((((cfg1.win 3).blk t).view.emb y) 0) k)
    refine congrArg (V c main_arg7) (funext fun a => Fin.ext ?_)
    match a with
    | ⟨0, _⟩ => show win1_1.index t (0 : Fin 2) * 5000 + 1 * (y 0).val = win1_3.index t (0 : Fin 2) * 5000 + 1 * (y 0).val; rw [e2, e6]
    | ⟨1, _⟩ => show win1_1.index t (1 : Fin 2) * 64 + 1 * k.val = k.val; rw [e3]; omega
  · show V c main_arg3 (((cfg1.win 2).blk t).view.emb (ix2 j k)) = V c main_arg3 (ix2 j k)
    refine congrArg (V c main_arg3) (funext fun a => Fin.ext ?_)
    match a with
    | ⟨0, _⟩ => show win1_2.index t (0 : Fin 2) * 64 + 1 * j.val = j.val; rw [e4]; omega
    | ⟨1, _⟩ => show win1_2.index t (1 : Fin 2) * 64 + 1 * k.val = k.val; rw [e5]; omega
  · show (y 1).val = win1_3.index t (1 : Fin 2) * 64 + 1 * (y 1).val
    rw [e7]; omega

/-- An index of the result table is in point t's block iff each coordinate is in the block's range. -/
theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v33).slice (win1_3.rect t)).set ↔ _
  rw [View.set_slice_whole, Rect.mem_set_unit]
  exact Iff.rfl

/-- Every row of the result table lies in some point's block: row r in block r / 5000. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨-, -, -, -, -, -, e6, e7⟩ := idx_facts1 ⟨(i 0).val / 5000, by rw [hN]; omega⟩
  refine ⟨⟨(i 0).val / 5000, by rw [hN]; omega⟩, flush1_3 _, ?_⟩
  rw [mem_blk1]
  intro a
  match a with
  | ⟨0, _⟩ =>
    show win1_3.index _ (0 : Fin 2) * 5000 ≤ (i 0).val ∧ (i 0).val < win1_3.index _ (0 : Fin 2) * 5000 + 5000
    rw [e6]
    show (i 0).val / 5000 * 5000 ≤ (i 0).val ∧ (i 0).val < (i 0).val / 5000 * 5000 + 5000
    omega
  | ⟨1, _⟩ =>
    show win1_3.index _ (1 : Fin 2) * 64 ≤ (i 1).val ∧ (i 1).val < win1_3.index _ (1 : Fin 2) * 64 + 64
    rw [e7]
    omega

/-- The second launch's result array after the launch is the whole result table of the tables it read. -/
theorem final1 (c : Dev nD) :
    (dat1 V c).arrAt 3 cfg1.N = AttnAgg.whole (n := 50000) (d := 64) (V c main_arg1) (V c main_arg7) (V c main_arg3) :=
  (dat1 V c).arrAt_eq_of_cover 3 _ (fun t _ => flushed1_eq V c t) cover1

end Cert.KernelIdeal.Blocks

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KernelRun.lean ====
/-
  The run of the kernel program with its three result buffers read.

  The program is a stretch of host operations (the knowledge-graph aggregate, written to one result buffer) followed by
  two kernel launches (the user table, then the item table, each writing its own result buffer). Every weakly fair
  execution terminates; at the end every buffer holds what the fold of the segments leaves in it. Read at the three
  result buffers and at the argument buffers this gives: the two launches' results are the whole attention-aggregation
  tables of the argument tables (a launch's inputs are argument buffers, which no earlier segment writes), the host
  result is the host operations' composed term of the arguments, and the arguments are as launched.
-/
import proofs.«137249_j15212774163210_2_alg».proof.Proof.Gen.KernelIdeal.Frame
import proofs.«137249_j15212774163210_2_alg».proof.Proof.KernelBlocks
import proofs.«137249_j15212774163210_2_alg».proof.Proof.LibHostRead

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the end each result buffer and each
    argument buffer holds what the fold of the program's segments leaves in it (`W5`); the arguments are as launched. -/
theorem run_fold : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_v31) = W5 m ρ c (Proc.devRef .tc main_v31)
      ∧ r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       h c _ (mem_uc main_v31 (by decide)),
       h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.KernelResults.lean ====
/-
  The three results of the kernel program as functions of its arguments.

  The item result is written by the second launch, whose inputs are argument buffers that no segment writes (a launch
  leaves its input tables as it found them): it is
  the whole attention-aggregation table of the item table, the item interaction table and the aspect table. The user
  result is written by the first launch and left alone by the second: the same table of the user tables. The
  knowledge-graph result is written by the host operations before the launches and left alone by both: the host
  operations' composed term of the arguments, which is operation for operation the reference's (gather of the tail
  entities times gather of the relation rows, scatter-added by head, divided by the clipped head counts).
-/
import proofs.«137249_j15212774163210_2_alg».proof.Proof.KernelRun
import proofs.«137249_j15212774163210_2_alg».proof.Proof.Gen.ReferenceIdeal.Read

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo
open Cert.HostRead

variable (m : (ℓ : Loc nD τ sig) → Buf (Elt Ideal) ℓ) (ρ : Dev nD → PrngReg)

/-- The item result after the run. -/
theorem item_result (c : Dev nD) : W5 m ρ c (Proc.devRef .tc main_v33)
    = AttnAgg.whole (n := 50000) (d := 64) (m ((c.tc : Thread nD τ).loc main_arg1)) (m ((c.tc : Thread nD τ).loc main_arg7)) (m ((c.tc : Thread nD τ).loc main_arg3)) := by
  refine (W5_arr m ρ c 3).trans ?_
  rw [Blocks.final1 (V4 m ρ) c]
  have e1 : V4 m ρ c main_arg1 = (m ((c.tc : Thread nD τ).loc main_arg1)) :=
    ((W5_arr m ρ c 0).trans (((dat1 (V4 m ρ) c).arrAt_in 0 rfl _).trans (A_eq1 (V4 m ρ) c 0))).symm.trans (W5_main_arg1 m ρ c)
  have e7 : V4 m ρ c main_arg7 = (m ((c.tc : Thread nD τ).loc main_arg7)) :=
    ((W5_arr m ρ c 1).trans (((dat1 (V4 m ρ) c).arrAt_in 1 rfl _).trans (A_eq1 (V4 m ρ) c 1))).symm.trans (W5_main_arg7 m ρ c)
  have e3 : V4 m ρ c main_arg3 = (m ((c.tc : Thread nD τ).loc main_arg3)) :=
    ((W5_arr m ρ c 2).trans (((dat1 (V4 m ρ) c).arrAt_in 2 rfl _).trans (A_eq1 (V4 m ρ) c 2))).symm.trans (W5_main_arg3 m ρ c)
  show AttnAgg.whole (n := 50000) (d := 64) (V4 m ρ c main_arg1) (V4 m ρ c main_arg7) (V4 m ρ c main_arg3) = _
  rw [e1, e7, e3]

/-- The user result after the run. -/
theorem user_result (c : Dev nD) : W5 m ρ c (Proc.devRef .tc main_v32)
    = AttnAgg.whole (n := 100000) (d := 64) (m ((c.tc : Thread nD τ).loc main_arg2)) (m ((c.tc : Thread nD τ).loc main_arg6)) (m ((c.tc : Thread nD τ).loc main_arg3)) := by
  refine (W5_of_ne m ρ c main_v32 (by decide)).trans ((W4_arr m ρ c 3).trans ?_)
  rw [Blocks.final0 (V3 m ρ) c]
  have e2 : V3 m ρ c main_arg2 = (m ((c.tc : Thread nD τ).loc main_arg2)) :=
    ((W4_arr m ρ c 0).trans (((dat0 (V3 m ρ) c).arrAt_in 0 rfl _).trans (A_eq0 (V3 m ρ) c 0))).symm.trans ((W5_of_ne m ρ c main_arg2 (by decide)).symm.trans (W5_main_arg2 m ρ c))
  have e6 : V3 m ρ c main_arg6 = (m ((c.tc : Thread nD τ).loc main_arg6)) :=
    ((W4_arr m ρ c 1).trans (((dat0 (V3 m ρ) c).arrAt_in 1 rfl _).trans (A_eq0 (V3 m ρ) c 1))).symm.trans ((W5_of_ne m ρ c main_arg6 (by decide)).symm.trans (W5_main_arg6 m ρ c))
  have e3 : V3 m ρ c main_arg3 = (m ((c.tc : Thread nD τ).loc main_arg3)) :=
    ((W4_arr m ρ c 2).trans (((dat0 (V3 m ρ) c).arrAt_in 2 rfl _).trans (A_eq0 (V3 m ρ) c 2))).symm.trans (((W5_arr m ρ c 2).trans (((dat1 (V4 m ρ) c).arrAt_in 2 rfl _).trans (A_eq1 (V4 m ρ) c 2))).symm.trans (W5_main_arg3 m ρ c))
  show AttnAgg.whole (n := 100000) (d := 64) (V3 m ρ c main_arg2) (V3 m ρ c main_arg6) (V3 m ρ c main_arg3) = _
  rw [e2, e6, e3]

/-- The knowledge-graph result after the run: the reference's own term of the arguments. -/
theorem entity_result (c : Dev nD) : W5 m ρ c (Proc.devRef .tc main_v31)
    = Cert.ReferenceIdeal.Read.val_main_v31 (F := Ideal) (m ((c.tc : Thread nD τ).loc main_arg0)) (m ((c.tc : Thread nD τ).loc main_arg4)) (m ((c.tc : Thread nD τ).loc main_arg5)) (m ((c.tc : Thread nD τ).loc main_arg8)) := by
  refine (W5_of_ne m ρ c main_v31 (by decide)).trans ((W4_of_ne m ρ c main_v31 (by decide)).trans ?_)
  show StableHlo.after hostOps0_2 (StableHlo.after hostOps0_1 (StableHlo.after hostOps0 (W0 m ρ c))) (Proc.devRef .tc main_v31) = _
  read_results
  rfl

/-- The run of the kernel program with its results named. -/
theorem run : θ_run defs (onTc (τ := τ) (main (F := Ideal))) ⟨m, fun _ => 0, ρ⟩ (fun r => ∀ c : Dev nD,
      r.2.mem ((c.tc : Thread nD τ).loc main_v33)
        = AttnAgg.whole (n := 50000) (d := 64) (m ((c.tc : Thread nD τ).loc main_arg1)) (m ((c.tc : Thread nD τ).loc main_arg7)) (m ((c.tc : Thread nD τ).loc main_arg3))
      ∧ r.2.mem ((c.tc : Thread nD τ).loc main_v31)
        = Cert.ReferenceIdeal.Read.val_main_v31 (F := Ideal) (m ((c.tc : Thread nD τ).loc main_arg0)) (m ((c.tc : Thread nD τ).loc main_arg4)) (m ((c.tc : Thread nD τ).loc main_arg5)) (m ((c.tc : Thread nD τ).loc main_arg8))
      ∧ r.2.mem ((c.tc : Thread nD τ).loc main_v32)
        = AttnAgg.whole (n := 100000) (d := 64) (m ((c.tc : Thread nD τ).loc main_arg2)) (m ((c.tc : Thread nD τ).loc main_arg6)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (item_result m ρ c), (h c).2.1.trans (entity_result m ρ c),
      (h c).2.2.1.trans (user_result m ρ c), (h c).2.2.2⟩)
    (Cert.KernelIdeal.Run.run_fold (F := Ideal) m ρ)

end Cert.KernelIdeal.Results

end
-- ==== Proof.RefTables.lean ====
/-
  The reference's two attention results are the whole attention-aggregation tables.

  The reference computes, for the user table and for the item table, the scores against the transposed aspect table, their
  row softmax (shifted by the row maximum), the softmax's row sum, the aggregated aspects of the interaction table, and
  combines them as g · Σ P + g. That is the host form of `AttnAgg`, whose entries are `AttnAgg.rowOut` of the rows.
-/
import proofs.«137249_j15212774163210_2_alg».proof.Proof.Gen.ReferenceIdeal.Read
import proofs.«137249_j15212774163210_2_alg».proof.Proof.LibAttnAgg

noncomputable section

namespace Cert.ReferenceIdeal.RefTables

open Cert.ReferenceIdeal Cert.ReferenceIdeal.Gen Idealize.ShloMosaic Idealize.ShloMosaic.TcCoe

/-- The reference's user result is the host form of the attention aggregation over 100000 rows. -/
theorem user_host (x2 x6 : (⟨S100000x64, .f32⟩ : BufTy).Contents (Elt Ideal)) (x3 : (⟨S64x64, .f32⟩ : BufTy).Contents (Elt Ideal)) :
    Read.val_main_v63 (F := Ideal) x2 x3 x6
      = AttnAgg.hostTable (n := 100000) (d := 64) reducesTo_S100000x64_S100000_d1 h_S_ bcast_S_S100000
          bcast_S100000_S100000x1_0 bcast_S100000x1_S100000x64_0_1 x2 x6 x3 transposes_S64x64_S64x64_1_0 := rfl

/-- The reference's user result is the whole result table of the user tables. -/
theorem user_eq (x2 x6 : (⟨S100000x64, .f32⟩ : BufTy).Contents (Elt Ideal)) (x3 : (⟨S64x64, .f32⟩ : BufTy).Contents (Elt Ideal)) :
    Read.val_main_v63 (F := Ideal) x2 x3 x6 = AttnAgg.whole (n := 100000) (d := 64) x2 x6 x3 :=
  (user_host x2 x6 x3).trans (AttnAgg.hostTable_eq _ _ _ _ _ x2 x6 x3 _ (by decide))

/-- The reference's item result is the host form of the attention aggregation over 50000 rows. -/
theorem item_host (x1 x7 : (⟨S50000x64, .f32⟩ : BufTy).Contents (Elt Ideal)) (x3 : (⟨S64x64, .f32⟩ : BufTy).Contents (Elt Ideal)) :
    Read.val_main_v69 (F := Ideal) x1 x3 x7
      = AttnAgg.hostTable (n := 50000) (d := 64) reducesTo_S50000x64_S50000_d1 h_S_ bcast_S_S50000
          bcast_S50000_S50000x1_0 bcast_S50000x1_S50000x64_0_1 x1 x7 x3 transposes_S64x64_S64x64_1_0 := rfl

/-- The reference's item result is the whole result table of the item tables. -/
theorem item_eq (x1 x7 : (⟨S50000x64, .f32⟩ : BufTy).Contents (Elt Ideal)) (x3 : (⟨S64x64, .f32⟩ : BufTy).Contents (Elt Ideal)) :
    Read.val_main_v69 (F := Ideal) x1 x3 x7 = AttnAgg.whole (n := 50000) (d := 64) x1 x7 x3 :=
  (item_host x1 x7 x3).trans (AttnAgg.hostTable_eq _ _ _ _ _ x1 x7 x3 _ (by decide))

end Cert.ReferenceIdeal.RefTables

end
-- ==== Proof.lean ====
/-
  The kernel program against its reference, on the extended reals.

  Both programs compute three tables from the same nine arguments.
  • The knowledge-graph aggregate (entity rows gathered at the tail indices, times relation rows gathered at the edge
    types, scatter-added by head index and divided by the clipped head counts) is computed by the same host operations
    in both programs: the two results are one term of the arguments.
  • The user result and the item result are, row by row, g · (Σ_j softmax(x · aᵀ)_j) + g with g = u · a, for the rows
    x, u of the embedding and interaction tables and the aspect table a (`AttnAgg.rowOut`). The kernel program computes
    them in blocks of 5000 rows, one kernel launch per table; a result row depends on its own rows only, so the blocks
    assemble to the whole table. The reference computes them on the whole tables. Changes of float format are the
    identity on the extended reals, a matrix product into a zero accumulator is the plain sum of products, and sums and
    maxima over a row do not depend on the order of their terms; the same expression stands on both sides, so no entry
    needs to be finite and the precondition is not used.
  The three frames are the generated ones (the reference's is its generated run with the results dropped); the
  idealization rewrote nothing, so `preserves` is trivial.
-/
import proofs.«137249_j15212774163210_2_alg».proof.Defs
import proofs.«137249_j15212774163210_2_alg».proof.Proof.Gen.Kernel
import proofs.«137249_j15212774163210_2_alg».proof.Proof.Gen.Kernel.Skeleton
import proofs.«137249_j15212774163210_2_alg».proof.Proof.Gen.Kernel.Launch
import proofs.«137249_j15212774163210_2_alg».proof.Proof.Gen.Kernel.Points
import proofs.«137249_j15212774163210_2_alg».proof.Proof.Gen.Kernel.Frame
import proofs.«137249_j15212774163210_2_alg».proof.Proof.Gen.KernelIdeal
import proofs.«137249_j15212774163210_2_alg».proof.Proof.Gen.KernelIdeal.Skeleton
import proofs.«137249_j15212774163210_2_alg».proof.Proof.Gen.KernelIdeal.Launch
import proofs.«137249_j15212774163210_2_alg».proof.Proof.Gen.KernelIdeal.Points
import proofs.«137249_j15212774163210_2_alg».proof.Proof.Gen.KernelIdeal.Frame
import proofs.«137249_j15212774163210_2_alg».proof.Proof.Gen.ReferenceIdeal
import proofs.«137249_j15212774163210_2_alg».proof.Proof.Gen.ReferenceIdeal.Run
import proofs.«137249_j15212774163210_2_alg».proof.Proof.Gen.ReferenceIdeal.Read
import proofs.«137249_j15212774163210_2_alg».proof.Proof.Gen.Pre_finite_inputs
import proofs.«137249_j15212774163210_2_alg».proof.Proof.KernelResults
import proofs.«137249_j15212774163210_2_alg».proof.Proof.RefTables
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From arguments that agree, the kernel program's three results (item, knowledge-graph, user) and the reference's
    are the same tables: the whole attention-aggregation tables of the item and user tables, and one host term. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8⟩ := hagree c
    rw [Cert.ReferenceIdeal.Read.val_main_v69_eq, Cert.ReferenceIdeal.RefTables.item_eq, a1, a7, a3]
  · obtain ⟨a0, a1, a2, a3, a4, a5, a6, a7, a8⟩ := hagree c
    rw [Cert.ReferenceIdeal.Read.val_main_v31_eq, a0, a4, a5, a8]
  · obtain ⟨a0, a1, a2, a3, a4, a5, a6, a7, a8⟩ := hagree c
    rw [Cert.ReferenceIdeal.Read.val_main_v63_eq, Cert.ReferenceIdeal.RefTables.user_eq, a2, a6, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
